-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65472 : Shape := ⟨2, ![2048, 65472]⟩
abbrev S_ : Shape := ⟨0, ![]⟩

class Facts : Prop where
  bcast_S_S2048x65472 : S_.BroadcastsInDim S2048x65472 (![] : Fin 0 → Fin S2048x65472.rank)
  reducesTo_S2048x65472_S_d0_1 : S2048x65472.ReducesTo [0, 1] S_
  h_S_ : 0 < S_.numel

variable [Facts]

def fn {F : FTy → Type} [FloatOps F] (main_arg0 : FVec F S2048x65472 .f32) : IVec S_ 1 :=
  let main_v0 : FVec F S2048x65472 .f32 := Host.absf main_arg0
  let main_cst : FVec F S_ .f32 := constant S_ .f32 0x7F800000#32
  let main_v1 : FVec F S2048x65472 .f32 := broadcastInDim S2048x65472 ![] bcast_S_S2048x65472 main_cst
  let main_v2 : IVec S2048x65472 1 := cmpf .olt main_v0 main_v1
  let main_c : IVec S_ 1 := constantI S_ 1 1#1
  let main_v3 : IVec S_ 1 := (fun x v => Host.reduce IntOp.andi x v reducesTo_S2048x65472_S_d0_1 h_S_) main_v2 main_c
  main_v3
-- ==== Kernel.lean ====
abbrev S2048x65472 : Shape := ⟨2, ![2048, 65472]⟩
abbrev S2048x64 : Shape := ⟨2, ![2048, 64]⟩
abbrev S32x65472 : Shape := ⟨2, ![32, 65472]⟩
abbrev S32x64 : Shape := ⟨2, ![32, 64]⟩
abbrev S32x64x1023 : Shape := ⟨3, ![32, 64, 1023]⟩
abbrev S32x64x1 : Shape := ⟨3, ![32, 64, 1]⟩
abbrev S32x64x1x1 : Shape := ⟨4, ![32, 64, 1, 1]⟩
abbrev S32x64x1x2 : Shape := ⟨4, ![32, 64, 1, 2]⟩
abbrev S32x64x2 : Shape := ⟨3, ![32, 64, 2]⟩
abbrev S32x64x2x1 : Shape := ⟨4, ![32, 64, 2, 1]⟩
abbrev S32x64x2x2 : Shape := ⟨4, ![32, 64, 2, 2]⟩
abbrev S32x64x4 : Shape := ⟨3, ![32, 64, 4]⟩
abbrev S32x64x4x1 : Shape := ⟨4, ![32, 64, 4, 1]⟩
abbrev S32x64x4x2 : Shape := ⟨4, ![32, 64, 4, 2]⟩
abbrev S32x64x8 : Shape := ⟨3, ![32, 64, 8]⟩
abbrev S32x64x8x1 : Shape := ⟨4, ![32, 64, 8, 1]⟩
abbrev S32x64x8x2 : Shape := ⟨4, ![32, 64, 8, 2]⟩
abbrev S32x64x16 : Shape := ⟨3, ![32, 64, 16]⟩
abbrev S32x64x16x1 : Shape := ⟨4, ![32, 64, 16, 1]⟩
abbrev S32x64x16x2 : Shape := ⟨4, ![32, 64, 16, 2]⟩
abbrev S32x64x32 : Shape := ⟨3, ![32, 64, 32]⟩
abbrev S32x64x32x1 : Shape := ⟨4, ![32, 64, 32, 1]⟩
abbrev S32x64x32x2 : Shape := ⟨4, ![32, 64, 32, 2]⟩
abbrev S32x64x64 : Shape := ⟨3, ![32, 64, 64]⟩
abbrev S32x64x64x1 : Shape := ⟨4, ![32, 64, 64, 1]⟩
abbrev S32x64x64x2 : Shape := ⟨4, ![32, 64, 64, 2]⟩
abbrev S32x64x128 : Shape := ⟨3, ![32, 64, 128]⟩
abbrev S32x64x128x1 : Shape := ⟨4, ![32, 64, 128, 1]⟩
abbrev S32x64x128x2 : Shape := ⟨4, ![32, 64, 128, 2]⟩
abbrev S32x64x256 : Shape := ⟨3, ![32, 64, 256]⟩
abbrev S32x64x256x1 : Shape := ⟨4, ![32, 64, 256, 1]⟩
abbrev S32x64x256x2 : Shape := ⟨4, ![32, 64, 256, 2]⟩
abbrev S32x64x512 : Shape := ⟨3, ![32, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x65472, .f32⟩
  | .hbm, ⟨1, _⟩ => ⟨S2048x64, .f32⟩
  | .local _ .vmem, ⟨0, _⟩ => ⟨S32x65472, .f32⟩
  | .local _ .vmem, ⟨1, _⟩ => ⟨S32x65472, .f32⟩
  | .local _ .vmem, ⟨2, _⟩ => ⟨S32x64, .f32⟩
  | .local _ .vmem, ⟨3, _⟩ => ⟨S32x64, .f32⟩
  | _, _ => ⟨S2048x65472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65472 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x65472_S32x65472_0_0 : ∀ a, (![0, 0] : Fin 2 → Nat) a + S32x65472.size a ≤ S32x65472.size a
  h_S32x65472 : 0 < S32x65472.numel
  shapeCasts_S32x65472_S32x64x1023 : S32x65472.ShapeCasts S32x64x1023
  slices_S32x64x1023_o0_0_0_S32x64x1 : S32x64x1023.Slices ![0, 0, 0] S32x64x1
  shapeCasts_S32x64x1_S32x64x1x1 : S32x64x1.ShapeCasts S32x64x1x1
  concatenates_S32x64x1x1_S32x64x1x1_S32x64x1x2_d3 : Shape.Concatenates [S32x64x1x1, S32x64x1x1] S32x64x1x2 3
  broadcasts_S32x64x1x1_S32x64x1x2 : S32x64x1x1.Broadcasts S32x64x1x2
  shapeCasts_S32x64x1x2_S32x64x2 : S32x64x1x2.ShapeCasts S32x64x2
  slices_S32x64x1023_o0_0_1_S32x64x2 : S32x64x1023.Slices ![0, 0, 1] S32x64x2
  shapeCasts_S32x64x2_S32x64x2x1 : S32x64x2.ShapeCasts S32x64x2x1
  concatenates_S32x64x2x1_S32x64x2x1_S32x64x2x2_d3 : Shape.Concatenates [S32x64x2x1, S32x64x2x1] S32x64x2x2 3
  broadcasts_S32x64x2x1_S32x64x2x2 : S32x64x2x1.Broadcasts S32x64x2x2
  shapeCasts_S32x64x2x2_S32x64x4 : S32x64x2x2.ShapeCasts S32x64x4
  slices_S32x64x1023_o0_0_3_S32x64x4 : S32x64x1023.Slices ![0, 0, 3] S32x64x4
  shapeCasts_S32x64x4_S32x64x4x1 : S32x64x4.ShapeCasts S32x64x4x1
  concatenates_S32x64x4x1_S32x64x4x1_S32x64x4x2_d3 : Shape.Concatenates [S32x64x4x1, S32x64x4x1] S32x64x4x2 3
  broadcasts_S32x64x4x1_S32x64x4x2 : S32x64x4x1.Broadcasts S32x64x4x2
  shapeCasts_S32x64x4x2_S32x64x8 : S32x64x4x2.ShapeCasts S32x64x8
  slices_S32x64x1023_o0_0_7_S32x64x8 : S32x64x1023.Slices ![0, 0, 7] S32x64x8
  shapeCasts_S32x64x8_S32x64x8x1 : S32x64x8.ShapeCasts S32x64x8x1
  concatenates_S32x64x8x1_S32x64x8x1_S32x64x8x2_d3 : Shape.Concatenates [S32x64x8x1, S32x64x8x1] S32x64x8x2 3
  broadcasts_S32x64x8x1_S32x64x8x2 : S32x64x8x1.Broadcasts S32x64x8x2
  shapeCasts_S32x64x8x2_S32x64x16 : S32x64x8x2.ShapeCasts S32x64x16
  slices_S32x64x1023_o0_0_15_S32x64x16 : S32x64x1023.Slices ![0, 0, 15] S32x64x16
  shapeCasts_S32x64x16_S32x64x16x1 : S32x64x16.ShapeCasts S32x64x16x1
  concatenates_S32x64x16x1_S32x64x16x1_S32x64x16x2_d3 : Shape.Concatenates [S32x64x16x1, S32x64x16x1] S32x64x16x2 3
  broadcasts_S32x64x16x1_S32x64x16x2 : S32x64x16x1.Broadcasts S32x64x16x2
  shapeCasts_S32x64x16x2_S32x64x32 : S32x64x16x2.ShapeCasts S32x64x32
  slices_S32x64x1023_o0_0_31_S32x64x32 : S32x64x1023.Slices ![0, 0, 31] S32x64x32
  shapeCasts_S32x64x32_S32x64x32x1 : S32x64x32.ShapeCasts S32x64x32x1
  concatenates_S32x64x32x1_S32x64x32x1_S32x64x32x2_d3 : Shape.Concatenates [S32x64x32x1, S32x64x32x1] S32x64x32x2 3
  broadcasts_S32x64x32x1_S32x64x32x2 : S32x64x32x1.Broadcasts S32x64x32x2
  shapeCasts_S32x64x32x2_S32x64x64 : S32x64x32x2.ShapeCasts S32x64x64
  slices_S32x64x1023_o0_0_63_S32x64x64 : S32x64x1023.Slices ![0, 0, 63] S32x64x64
  shapeCasts_S32x64x64_S32x64x64x1 : S32x64x64.ShapeCasts S32x64x64x1
  concatenates_S32x64x64x1_S32x64x64x1_S32x64x64x2_d3 : Shape.Concatenates [S32x64x64x1, S32x64x64x1] S32x64x64x2 3
  broadcasts_S32x64x64x1_S32x64x64x2 : S32x64x64x1.Broadcasts S32x64x64x2
  shapeCasts_S32x64x64x2_S32x64x128 : S32x64x64x2.ShapeCasts S32x64x128
  slices_S32x64x1023_o0_0_127_S32x64x128 : S32x64x1023.Slices ![0, 0, 127] S32x64x128
  shapeCasts_S32x64x128_S32x64x128x1 : S32x64x128.ShapeCasts S32x64x128x1
  concatenates_S32x64x128x1_S32x64x128x1_S32x64x128x2_d3 : Shape.Concatenates [S32x64x128x1, S32x64x128x1] S32x64x128x2 3
  broadcasts_S32x64x128x1_S32x64x128x2 : S32x64x128x1.Broadcasts S32x64x128x2
  shapeCasts_S32x64x128x2_S32x64x256 : S32x64x128x2.ShapeCasts S32x64x256
  slices_S32x64x1023_o0_0_255_S32x64x256 : S32x64x1023.Slices ![0, 0, 255] S32x64x256
  shapeCasts_S32x64x256_S32x64x256x1 : S32x64x256.ShapeCasts S32x64x256x1
  concatenates_S32x64x256x1_S32x64x256x1_S32x64x256x2_d3 : Shape.Concatenates [S32x64x256x1, S32x64x256x1] S32x64x256x2 3
  broadcasts_S32x64x256x1_S32x64x256x2 : S32x64x256x1.Broadcasts S32x64x256x2
  shapeCasts_S32x64x256x2_S32x64x512 : S32x64x256x2.ShapeCasts S32x64x512
  slices_S32x64x1023_o0_0_511_S32x64x512 : S32x64x1023.Slices ![0, 0, 511] S32x64x512
  reduces_S32x64x512_S32x64 : S32x64x512.Reduces [2] S32x64
  inb_S32x64_S32x64_0_0 : ∀ a, (![0, 0] : Fin 2 → Nat) a + S32x64.size a ≤ S32x64.size a
  h_S32x64 : 0 < S32x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65472.size a ≤ S2048x65472.size a
  hwx0_0 : ∀ i : grid0.Coords, EltTy.bits .f32 = 32 ∨ (Rect.block (s := S2048x65472) S32x65472.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S2048x64.size a
  hwx0_1 : ∀ i : grid0.Coords, EltTy.bits .f32 = 32 ∨ (Rect.block (s := S2048x64) S32x64.size (cc0_transform_1 i) (hinb0_1 i)).WholeWords (EltTy.packing .f32)

variable [Facts₀]

abbrev win0_0 : Pipeline.Window sig grid0 :=
  Pipeline.Window.ofSpec (Memref.whole main_arg0) S32x65472.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x65472 : Shape := ⟨2, ![2048, 65472]⟩
abbrev S2048x64x1023 : Shape := ⟨3, ![2048, 64, 1023]⟩
abbrev S_ : Shape := ⟨0, ![]⟩
abbrev S2048x64x1 : Shape := ⟨3, ![2048, 64, 1]⟩
abbrev S2048x64x1x1 : Shape := ⟨4, ![2048, 64, 1, 1]⟩
abbrev S2048x64x1x2 : Shape := ⟨4, ![2048, 64, 1, 2]⟩
abbrev S2048x64x2 : Shape := ⟨3, ![2048, 64, 2]⟩
abbrev S2048x64x2x1 : Shape := ⟨4, ![2048, 64, 2, 1]⟩
abbrev S2048x64x2x2 : Shape := ⟨4, ![2048, 64, 2, 2]⟩
abbrev S2048x64x4 : Shape := ⟨3, ![2048, 64, 4]⟩
abbrev S2048x64x4x1 : Shape := ⟨4, ![2048, 64, 4, 1]⟩
abbrev S2048x64x4x2 : Shape := ⟨4, ![2048, 64, 4, 2]⟩
abbrev S2048x64x8 : Shape := ⟨3, ![2048, 64, 8]⟩
abbrev S2048x64x8x1 : Shape := ⟨4, ![2048, 64, 8, 1]⟩
abbrev S2048x64x8x2 : Shape := ⟨4, ![2048, 64, 8, 2]⟩
abbrev S2048x64x16 : Shape := ⟨3, ![2048, 64, 16]⟩
abbrev S2048x64x16x1 : Shape := ⟨4, ![2048, 64, 16, 1]⟩
abbrev S2048x64x16x2 : Shape := ⟨4, ![2048, 64, 16, 2]⟩
abbrev S2048x64x32 : Shape := ⟨3, ![2048, 64, 32]⟩
abbrev S2048x64x32x1 : Shape := ⟨4, ![2048, 64, 32, 1]⟩
abbrev S2048x64x32x2 : Shape := ⟨4, ![2048, 64, 32, 2]⟩
abbrev S2048x64x64 : Shape := ⟨3, ![2048, 64, 64]⟩
abbrev S2048x64x64x1 : Shape := ⟨4, ![2048, 64, 64, 1]⟩
abbrev S2048x64x64x2 : Shape := ⟨4, ![2048, 64, 64, 2]⟩
abbrev S2048x64x128 : Shape := ⟨3, ![2048, 64, 128]⟩
abbrev S2048x64x128x1 : Shape := ⟨4, ![2048, 64, 128, 1]⟩
abbrev S2048x64x128x2 : Shape := ⟨4, ![2048, 64, 128, 2]⟩
abbrev S2048x64x256 : Shape := ⟨3, ![2048, 64, 256]⟩
abbrev S2048x64x256x1 : Shape := ⟨4, ![2048, 64, 256, 1]⟩
abbrev S2048x64x256x2 : Shape := ⟨4, ![2048, 64, 256, 2]⟩
abbrev S2048x64x512 : Shape := ⟨3, ![2048, 64, 512]⟩
abbrev S2048x64x512x1 : Shape := ⟨4, ![2048, 64, 512, 1]⟩
abbrev S2048x64x512x2 : Shape := ⟨4, ![2048, 64, 512, 2]⟩
abbrev S2048x64x1024 : Shape := ⟨3, ![2048, 64, 1024]⟩
abbrev S2048x64 : Shape := ⟨2, ![2048, 64]⟩

abbrev nBuf : Space → Nat
  | .hbm => 127
  | .vmem => 0
  | .smem => 0
  | _ => 0

abbrev bufTy : (tb : Table) → Fin (tcTables nBuf tb) → BufTy
  | .hbm, ⟨0, _⟩ => ⟨S2048x65472, .f32⟩
  | .hbm, ⟨1, _⟩ => ⟨S2048x64x1023, .f32⟩
  | .hbm, ⟨2, _⟩ => ⟨S2048x64x1023, .f32⟩
  | .hbm, ⟨3, _⟩ => ⟨S2048x64x1023, .f32⟩
  | .hbm, ⟨4, _⟩ => ⟨S_, .f32⟩
  | .hbm, ⟨5, _⟩ => ⟨S2048x64x1023, .f32⟩
  | .hbm, ⟨6, _⟩ => ⟨S2048x64x1023, .f32⟩
  | .hbm, ⟨7, _⟩ => ⟨S_, .f32⟩
  | .hbm, ⟨8, _⟩ => ⟨S2048x64x1023, .f32⟩
  | .hbm, ⟨9, _⟩ => ⟨S2048x64x1023, .f32⟩
  | .hbm, ⟨10, _⟩ => ⟨S2048x64x1, .f32⟩
  | .hbm, ⟨11, _⟩ => ⟨S_, .f32⟩
  | .hbm, ⟨12, _⟩ => ⟨S2048x64x1, .f32⟩
  | .hbm, ⟨13, _⟩ => ⟨S2048x64x1, .f32⟩
  | .hbm, ⟨14, _⟩ => ⟨S_, .f32⟩
  | .hbm, ⟨15, _⟩ => ⟨S2048x64x1, .f32⟩
  | .hbm, ⟨16, _⟩ => ⟨S2048x64x1, .f32⟩
  | .hbm, ⟨17, _⟩ => ⟨S2048x64x1x1, .f32⟩
  | .hbm, ⟨18, _⟩ => ⟨S2048x64x1x1, .f32⟩
  | .hbm, ⟨19, _⟩ => ⟨S2048x64x1x2, .f32⟩
  | .hbm, ⟨20, _⟩ => ⟨S2048x64x1x1, .f32⟩
  | .hbm, ⟨21, _⟩ => ⟨S2048x64x1x2, .f32⟩
  | .hbm, ⟨22, _⟩ => ⟨S2048x64x1x2, .f32⟩
  | .hbm, ⟨23, _⟩ => ⟨S2048x64x2, .f32⟩
  | .hbm, ⟨24, _⟩ => ⟨S2048x64x2, .f32⟩
  | .hbm, ⟨25, _⟩ => ⟨S_, .f32⟩
  | .hbm, ⟨26, _⟩ => ⟨S2048x64x2, .f32⟩
  | .hbm, ⟨27, _⟩ => ⟨S2048x64x2, .f32⟩
  | .hbm, ⟨28, _⟩ => ⟨S2048x64x2x1, .f32⟩
  | .hbm, ⟨29, _⟩ => ⟨S2048x64x2x1, .f32⟩
  | .hbm, ⟨30, _⟩ => ⟨S2048x64x2x2, .f32⟩
  | .hbm, ⟨31, _⟩ => ⟨S2048x64x2x1, .f32⟩
  | .hbm, ⟨32, _⟩ => ⟨S2048x64x2x2, .f32⟩
  | .hbm, ⟨33, _⟩ => ⟨S2048x64x2x2, .f32⟩
  | .hbm, ⟨34, _⟩ => ⟨S2048x64x4, .f32⟩
  | .hbm, ⟨35, _⟩ => ⟨S2048x64x4, .f32⟩
  | .hbm, ⟨36, _⟩ => ⟨S_, .f32⟩
  | .hbm, ⟨37, _⟩ => ⟨S2048x64x4, .f32⟩
  | .hbm, ⟨38, _⟩ => ⟨S2048x64x4, .f32⟩
  | .hbm, ⟨39, _⟩ => ⟨S2048x64x4x1, .f32⟩
  | .hbm, ⟨40, _⟩ => ⟨S2048x64x4x1, .f32⟩
  | .hbm, ⟨41, _⟩ => ⟨S2048x64x4x2, .f32⟩
  | .hbm, ⟨42, _⟩ => ⟨S2048x64x4x1, .f32⟩
  | .hbm, ⟨43, _⟩ => ⟨S2048x64x4x2, .f32⟩
  | .hbm, ⟨44, _⟩ => ⟨S2048x64x4x2, .f32⟩
  | .hbm, ⟨45, _⟩ => ⟨S2048x64x8, .f32⟩
  | .hbm, ⟨46, _⟩ => ⟨S2048x64x8, .f32⟩
  | .hbm, ⟨47, _⟩ => ⟨S_, .f32⟩
  | .hbm, ⟨48, _⟩ => ⟨S2048x64x8, .f32⟩
  | .hbm, ⟨49, _⟩ => ⟨S2048x64x8, .f32⟩
  | .hbm, ⟨50, _⟩ => ⟨S2048x64x8x1, .f32⟩
  | .hbm, ⟨51, _⟩ => ⟨S2048x64x8x1, .f32⟩
  | .hbm, ⟨52, _⟩ => ⟨S2048x64x8x2, .f32⟩
  | .hbm, ⟨53, _⟩ => ⟨S2048x64x8x1, .f32⟩
  | .hbm, ⟨54, _⟩ => ⟨S2048x64x8x2, .f32⟩
  | .hbm, ⟨55, _⟩ => ⟨S2048x64x8x2, .f32⟩
  | .hbm, ⟨56, _⟩ => ⟨S2048x64x16, .f32⟩
  | .hbm, ⟨57, _⟩ => ⟨S2048x64x16, .f32⟩
  | .hbm, ⟨58, _⟩ => ⟨S_, .f32⟩
  | .hbm, ⟨59, _⟩ => ⟨S2048x64x16, .f32⟩
  | .hbm, ⟨60, _⟩ => ⟨S2048x64x16, .f32⟩
  | .hbm, ⟨61, _⟩ => ⟨S2048x64x16x1, .f32⟩
  | .hbm, ⟨62, _⟩ => ⟨S2048x64x16x1, .f32⟩
  | .hbm, ⟨63, _⟩ => ⟨S2048x64x16x2, .f32⟩
  | .hbm, ⟨64, _⟩ => ⟨S2048x64x16x1, .f32⟩
  | .hbm, ⟨65, _⟩ => ⟨S2048x64x16x2, .f32⟩
  | .hbm, ⟨66, _⟩ => ⟨S2048x64x16x2, .f32⟩
  | .hbm, ⟨67, _⟩ => ⟨S2048x64x32, .f32⟩
  | .hbm, ⟨68, _⟩ => ⟨S2048x64x32, .f32⟩
  | .hbm, ⟨69, _⟩ => ⟨S_, .f32⟩
  | .hbm, ⟨70, _⟩ => ⟨S2048x64x32, .f32⟩
  | .hbm, ⟨71, _⟩ => ⟨S2048x64x32, .f32⟩
  | .hbm, ⟨72, _⟩ => ⟨S2048x64x32x1, .f32⟩
  | .hbm, ⟨73, _⟩ => ⟨S2048x64x32x1, .f32⟩
  | .hbm, ⟨74, _⟩ => ⟨S2048x64x32x2, .f32⟩
  | .hbm, ⟨75, _⟩ => ⟨S2048x64x32x1, .f32⟩
  | .hbm, ⟨76, _⟩ => ⟨S2048x64x32x2, .f32⟩
  | .hbm, ⟨77, _⟩ => ⟨S2048x64x32x2, .f32⟩
  | .hbm, ⟨78, _⟩ => ⟨S2048x64x64, .f32⟩
  | .hbm, ⟨79, _⟩ => ⟨S2048x64x64, .f32⟩
  | .hbm, ⟨80, _⟩ => ⟨S_, .f32⟩
  | .hbm, ⟨81, _⟩ => ⟨S2048x64x64, .f32⟩
  | .hbm, ⟨82, _⟩ => ⟨S2048x64x64, .f32⟩
  | .hbm, ⟨83, _⟩ => ⟨S2048x64x64x1, .f32⟩
  | .hbm, ⟨84, _⟩ => ⟨S2048x64x64x1, .f32⟩
  | .hbm, ⟨85, _⟩ => ⟨S2048x64x64x2, .f32⟩
  | .hbm, ⟨86, _⟩ => ⟨S2048x64x64x1, .f32⟩
  | .hbm, ⟨87, _⟩ => ⟨S2048x64x64x2, .f32⟩
  | .hbm, ⟨88, _⟩ => ⟨S2048x64x64x2, .f32⟩
  | .hbm, ⟨89, _⟩ => ⟨S2048x64x128, .f32⟩
  | .hbm, ⟨90, _⟩ => ⟨S2048x64x128, .f32⟩
  | .hbm, ⟨91, _⟩ => ⟨S_, .f32⟩
  | .hbm, ⟨92, _⟩ => ⟨S2048x64x128, .f32⟩
  | .hbm, ⟨93, _⟩ => ⟨S2048x64x128, .f32⟩
  | .hbm, ⟨94, _⟩ => ⟨S2048x64x128x1, .f32⟩
  | .hbm, ⟨95, _⟩ => ⟨S2048x64x128x1, .f32⟩
  | .hbm, ⟨96, _⟩ => ⟨S2048x64x128x2, .f32⟩
  | .hbm, ⟨97, _⟩ => ⟨S2048x64x128x1, .f32⟩
  | .hbm, ⟨98, _⟩ => ⟨S2048x64x128x2, .f32⟩
  | .hbm, ⟨99, _⟩ => ⟨S2048x64x128x2, .f32⟩
  | .hbm, ⟨100, _⟩ => ⟨S2048x64x256, .f32⟩
  | .hbm, ⟨101, _⟩ => ⟨S2048x64x256, .f32⟩
  | .hbm, ⟨102, _⟩ => ⟨S_, .f32⟩
  | .hbm, ⟨103, _⟩ => ⟨S2048x64x256, .f32⟩
  | .hbm, ⟨104, _⟩ => ⟨S2048x64x256, .f32⟩
  | .hbm, ⟨105, _⟩ => ⟨S2048x64x256x1, .f32⟩
  | .hbm, ⟨106, _⟩ => ⟨S2048x64x256x1, .f32⟩
  | .hbm, ⟨107, _⟩ => ⟨S2048x64x256x2, .f32⟩
  | .hbm, ⟨108, _⟩ => ⟨S2048x64x256x1, .f32⟩
  | .hbm, ⟨109, _⟩ => ⟨S2048x64x256x2, .f32⟩
  | .hbm, ⟨110, _⟩ => ⟨S2048x64x256x2, .f32⟩
  | .hbm, ⟨111, _⟩ => ⟨S2048x64x512, .f32⟩
  | .hbm, ⟨112, _⟩ => ⟨S2048x64x512, .f32⟩
  | .hbm, ⟨113, _⟩ => ⟨S_, .f32⟩
  | .hbm, ⟨114, _⟩ => ⟨S2048x64x512, .f32⟩
  | .hbm, ⟨115, _⟩ => ⟨S2048x64x512, .f32⟩
  | .hbm, ⟨116, _⟩ => ⟨S2048x64x512x1, .f32⟩
  | .hbm, ⟨117, _⟩ => ⟨S2048x64x512x1, .f32⟩
  | .hbm, ⟨118, _⟩ => ⟨S2048x64x512x2, .f32⟩
  | .hbm, ⟨119, _⟩ => ⟨S2048x64x512x1, .f32⟩
  | .hbm, ⟨120, _⟩ => ⟨S2048x64x512x2, .f32⟩
  | .hbm, ⟨121, _⟩ => ⟨S2048x64x512x2, .f32⟩
  | .hbm, ⟨122, _⟩ => ⟨S2048x64x1024, .f32⟩
  | .hbm, ⟨123, _⟩ => ⟨S_, .f32⟩
  | .hbm, ⟨124, _⟩ => ⟨S2048x64x2, .f32⟩
  | .hbm, ⟨125, _⟩ => ⟨S2048x64x1, .f32⟩
  | .hbm, ⟨126, _⟩ => ⟨S2048x64, .f32⟩
  | _, _ => ⟨S2048x65472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_4 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_7 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_8 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_9 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_10 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_11 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_12 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩

abbrev nD : Nat := 1
abbrev τ : Topo := Topo.v7x

variable {F : FTy → Type} [FloatOps F]

class Facts₀ : Prop where
  shapeCasts_S2048x65472_S2048x64x1023 : S2048x65472.ShapeCasts S2048x64x1023
  bcast_S_S2048x64x1023 : S_.BroadcastsInDim S2048x64x1023 (![] : Fin 0 → Fin S2048x64x1023.rank)
  slices_S2048x64x1023_S2048x64x1_0_0_0 : S2048x64x1023.Slices ![0, 0, 0] S2048x64x1
  bcast_S_S2048x64x1 : S_.BroadcastsInDim S2048x64x1 (![] : Fin 0 → Fin S2048x64x1.rank)
  bcast_S2048x64x1_S2048x64x1x1_0_1_2 : S2048x64x1.BroadcastsInDim S2048x64x1x1 (![0, 1, 2] : Fin 3 → Fin S2048x64x1x1.rank)
  concatenates_S2048x64x1x1_S2048x64x1x1_S2048x64x1x2_d3 : Shape.Concatenates [S2048x64x1x1, S2048x64x1x1] S2048x64x1x2 3
  bcast_S2048x64x1x1_S2048x64x1x2_0_1_2_3 : S2048x64x1x1.BroadcastsInDim S2048x64x1x2 (![0, 1, 2, 3] : Fin 4 → Fin S2048x64x1x2.rank)
  shapeCasts_S2048x64x1x2_S2048x64x2 : S2048x64x1x2.ShapeCasts S2048x64x2
  slices_S2048x64x1023_S2048x64x2_0_0_1 : S2048x64x1023.Slices ![0, 0, 1] S2048x64x2
  bcast_S_S2048x64x2 : S_.BroadcastsInDim S2048x64x2 (![] : Fin 0 → Fin S2048x64x2.rank)
  bcast_S2048x64x2_S2048x64x2x1_0_1_2 : S2048x64x2.BroadcastsInDim S2048x64x2x1 (![0, 1, 2] : Fin 3 → Fin S2048x64x2x1.rank)
  concatenates_S2048x64x2x1_S2048x64x2x1_S2048x64x2x2_d3 : Shape.Concatenates [S2048x64x2x1, S2048x64x2x1] S2048x64x2x2 3
  bcast_S2048x64x2x1_S2048x64x2x2_0_1_2_3 : S2048x64x2x1.BroadcastsInDim S2048x64x2x2 (![0, 1, 2, 3] : Fin 4 → Fin S2048x64x2x2.rank)
  shapeCasts_S2048x64x2x2_S2048x64x4 : S2048x64x2x2.ShapeCasts S2048x64x4
  slices_S2048x64x1023_S2048x64x4_0_0_3 : S2048x64x1023.Slices ![0, 0, 3] S2048x64x4
  bcast_S_S2048x64x4 : S_.BroadcastsInDim S2048x64x4 (![] : Fin 0 → Fin S2048x64x4.rank)
  bcast_S2048x64x4_S2048x64x4x1_0_1_2 : S2048x64x4.BroadcastsInDim S2048x64x4x1 (![0, 1, 2] : Fin 3 → Fin S2048x64x4x1.rank)
  concatenates_S2048x64x4x1_S2048x64x4x1_S2048x64x4x2_d3 : Shape.Concatenates [S2048x64x4x1, S2048x64x4x1] S2048x64x4x2 3
  bcast_S2048x64x4x1_S2048x64x4x2_0_1_2_3 : S2048x64x4x1.BroadcastsInDim S2048x64x4x2 (![0, 1, 2, 3] : Fin 4 → Fin S2048x64x4x2.rank)
  shapeCasts_S2048x64x4x2_S2048x64x8 : S2048x64x4x2.ShapeCasts S2048x64x8
  slices_S2048x64x1023_S2048x64x8_0_0_7 : S2048x64x1023.Slices ![0, 0, 7] S2048x64x8
  bcast_S_S2048x64x8 : S_.BroadcastsInDim S2048x64x8 (![] : Fin 0 → Fin S2048x64x8.rank)
  bcast_S2048x64x8_S2048x64x8x1_0_1_2 : S2048x64x8.BroadcastsInDim S2048x64x8x1 (![0, 1, 2] : Fin 3 → Fin S2048x64x8x1.rank)
  concatenates_S2048x64x8x1_S2048x64x8x1_S2048x64x8x2_d3 : Shape.Concatenates [S2048x64x8x1, S2048x64x8x1] S2048x64x8x2 3
  bcast_S2048x64x8x1_S2048x64x8x2_0_1_2_3 : S2048x64x8x1.BroadcastsInDim S2048x64x8x2 (![0, 1, 2, 3] : Fin 4 → Fin S2048x64x8x2.rank)
  shapeCasts_S2048x64x8x2_S2048x64x16 : S2048x64x8x2.ShapeCasts S2048x64x16
  slices_S2048x64x1023_S2048x64x16_0_0_15 : S2048x64x1023.Slices ![0, 0, 15] S2048x64x16
  bcast_S_S2048x64x16 : S_.BroadcastsInDim S2048x64x16 (![] : Fin 0 → Fin S2048x64x16.rank)
  bcast_S2048x64x16_S2048x64x16x1_0_1_2 : S2048x64x16.BroadcastsInDim S2048x64x16x1 (![0, 1, 2] : Fin 3 → Fin S2048x64x16x1.rank)
  concatenates_S2048x64x16x1_S2048x64x16x1_S2048x64x16x2_d3 : Shape.Concatenates [S2048x64x16x1, S2048x64x16x1] S2048x64x16x2 3
  bcast_S2048x64x16x1_S2048x64x16x2_0_1_2_3 : S2048x64x16x1.BroadcastsInDim S2048x64x16x2 (![0, 1, 2, 3] : Fin 4 → Fin S2048x64x16x2.rank)
  shapeCasts_S2048x64x16x2_S2048x64x32 : S2048x64x16x2.ShapeCasts S2048x64x32
  slices_S2048x64x1023_S2048x64x32_0_0_31 : S2048x64x1023.Slices ![0, 0, 31] S2048x64x32
  bcast_S_S2048x64x32 : S_.BroadcastsInDim S2048x64x32 (![] : Fin 0 → Fin S2048x64x32.rank)
  bcast_S2048x64x32_S2048x64x32x1_0_1_2 : S2048x64x32.BroadcastsInDim S2048x64x32x1 (![0, 1, 2] : Fin 3 → Fin S2048x64x32x1.rank)
  concatenates_S2048x64x32x1_S2048x64x32x1_S2048x64x32x2_d3 : Shape.Concatenates [S2048x64x32x1, S2048x64x32x1] S2048x64x32x2 3
  bcast_S2048x64x32x1_S2048x64x32x2_0_1_2_3 : S2048x64x32x1.BroadcastsInDim S2048x64x32x2 (![0, 1, 2, 3] : Fin 4 → Fin S2048x64x32x2.rank)
  shapeCasts_S2048x64x32x2_S2048x64x64 : S2048x64x32x2.ShapeCasts S2048x64x64
  slices_S2048x64x1023_S2048x64x64_0_0_63 : S2048x64x1023.Slices ![0, 0, 63] S2048x64x64
  bcast_S_S2048x64x64 : S_.BroadcastsInDim S2048x64x64 (![] : Fin 0 → Fin S2048x64x64.rank)
  bcast_S2048x64x64_S2048x64x64x1_0_1_2 : S2048x64x64.BroadcastsInDim S2048x64x64x1 (![0, 1, 2] : Fin 3 → Fin S2048x64x64x1.rank)
  concatenates_S2048x64x64x1_S2048x64x64x1_S2048x64x64x2_d3 : Shape.Concatenates [S2048x64x64x1, S2048x64x64x1] S2048x64x64x2 3
  bcast_S2048x64x64x1_S2048x64x64x2_0_1_2_3 : S2048x64x64x1.BroadcastsInDim S2048x64x64x2 (![0, 1, 2, 3] : Fin 4 → Fin S2048x64x64x2.rank)
  shapeCasts_S2048x64x64x2_S2048x64x128 : S2048x64x64x2.ShapeCasts S2048x64x128
  slices_S2048x64x1023_S2048x64x128_0_0_127 : S2048x64x1023.Slices ![0, 0, 127] S2048x64x128
  bcast_S_S2048x64x128 : S_.BroadcastsInDim S2048x64x128 (![] : Fin 0 → Fin S2048x64x128.rank)
  bcast_S2048x64x128_S2048x64x128x1_0_1_2 : S2048x64x128.BroadcastsInDim S2048x64x128x1 (![0, 1, 2] : Fin 3 → Fin S2048x64x128x1.rank)
  concatenates_S2048x64x128x1_S2048x64x128x1_S2048x64x128x2_d3 : Shape.Concatenates [S2048x64x128x1, S2048x64x128x1] S2048x64x128x2 3
  bcast_S2048x64x128x1_S2048x64x128x2_0_1_2_3 : S2048x64x128x1.BroadcastsInDim S2048x64x128x2 (![0, 1, 2, 3] : Fin 4 → Fin S2048x64x128x2.rank)
  shapeCasts_S2048x64x128x2_S2048x64x256 : S2048x64x128x2.ShapeCasts S2048x64x256
  slices_S2048x64x1023_S2048x64x256_0_0_255 : S2048x64x1023.Slices ![0, 0, 255] S2048x64x256
  bcast_S_S2048x64x256 : S_.BroadcastsInDim S2048x64x256 (![] : Fin 0 → Fin S2048x64x256.rank)
  bcast_S2048x64x256_S2048x64x256x1_0_1_2 : S2048x64x256.BroadcastsInDim S2048x64x256x1 (![0, 1, 2] : Fin 3 → Fin S2048x64x256x1.rank)
  concatenates_S2048x64x256x1_S2048x64x256x1_S2048x64x256x2_d3 : Shape.Concatenates [S2048x64x256x1, S2048x64x256x1] S2048x64x256x2 3
  bcast_S2048x64x256x1_S2048x64x256x2_0_1_2_3 : S2048x64x256x1.BroadcastsInDim S2048x64x256x2 (![0, 1, 2, 3] : Fin 4 → Fin S2048x64x256x2.rank)
  shapeCasts_S2048x64x256x2_S2048x64x512 : S2048x64x256x2.ShapeCasts S2048x64x512
  slices_S2048x64x1023_S2048x64x512_0_0_511 : S2048x64x1023.Slices ![0, 0, 511] S2048x64x512
  bcast_S_S2048x64x512 : S_.BroadcastsInDim S2048x64x512 (![] : Fin 0 → Fin S2048x64x512.rank)
  bcast_S2048x64x512_S2048x64x512x1_0_1_2 : S2048x64x512.BroadcastsInDim S2048x64x512x1 (![0, 1, 2] : Fin 3 → Fin S2048x64x512x1.rank)
  concatenates_S2048x64x512x1_S2048x64x512x1_S2048x64x512x2_d3 : Shape.Concatenates [S2048x64x512x1, S2048x64x512x1] S2048x64x512x2 3
  bcast_S2048x64x512x1_S2048x64x512x2_0_1_2_3 : S2048x64x512x1.BroadcastsInDim S2048x64x512x2 (![0, 1, 2, 3] : Fin 4 → Fin S2048x64x512x2.rank)
  shapeCasts_S2048x64x512x2_S2048x64x1024 : S2048x64x512x2.ShapeCasts S2048x64x1024
  reducesTo_S2048x64x512x2_S2048x64x2_d2 : S2048x64x512x2.ReducesTo [2] S2048x64x2
  h_S_ : 0 < S_.numel
  slices_S2048x64x2_S2048x64x1_0_0_1 : S2048x64x2.Slices ![0, 0, 1] S2048x64x1
  shapeCasts_S2048x64x1_S2048x64 : S2048x64x1.ShapeCasts S2048x64

variable [Facts₀]

class Facts : Prop extends Facts₀ where

variable [Facts]
-- ==== Proof.LibInterleave.lean ====
/-
  Two arrays of one shape [B, T, w] stacked on a new last axis and flattened to [B, T, 2w] — what
  `jnp.stack([y0, y1], axis=-1).reshape(B, T, 2 * w)` computes, the INTERLEAVE of the two along the last axis — read at
  an index, together with the product with a third array `p` repeated on both members of each pair:

      result (b, t, k) = p (b, t, k / 2) * (if k is even then y0 (b, t, k / 2) else y1 (b, t, k / 2)).

  The flattening keeps the row-major position, so entry `k` of the flat axis is member `k % 2` of pair `k / 2`. The
  same value is spelled in two ways by the two front ends, and both are read here, for every extent `B`, `T`, `w`:
  with a trailing unit axis added by a shape cast and the pair axis filled by a vector broadcast (a kernel's
  spelling), and with both done by `broadcast_in_dim` (a host program's spelling). The four layout steps are stated
  one by one first; each names the operand's index by its coordinates.
-/
import Idealize.ShloMosaic.Lib.ValueIdx
import Idealize.ShloMosaic.Lib.Pipeline.Value

noncomputable section

namespace Idealize.ShloMosaic.Interleave

open Idealize.ShloMosaic Idealize.ShloMosaic.ValueIdx

variable {α : Type} {B T w : ℕ}

/-! ## The four layout steps, each read at an index -/

/-- A trailing unit axis added by a SHAPE CAST: entry `(b, t, h, 0)` is entry `(b, t, h)`. -/
theorem cast_addLast_apply (x : (⟨3, ![B, T, w]⟩ : Shape).Idx → α)
    (hc : (⟨3, ![B, T, w]⟩ : Shape).ShapeCasts ⟨4, ![B, T, w, 1]⟩) (b : Fin B) (t : Fin T) (h : Fin w) (z : Fin 1) :
    shapeCast ⟨4, ![B, T, w, 1]⟩ x hc (ix4 b t h z) = x (ix3 b t h) := by
  refine shapeCast_apply x hc (ix4 b t h z) (ix3 b t h) ?_
  rw [Shape.rowMajor_val_three, Shape.rowMajor_val_four]
  show (b.val * T + t.val) * w + h.val = ((b.val * T + t.val) * w + h.val) * 1 + z.val
  have := z.isLt
  omega

/-- A trailing unit axis added by `broadcast_in_dim` along the first three axes: the same entry. -/
theorem bcast_addLast_apply (x : (⟨3, ![B, T, w]⟩ : Shape).Idx → α)
    (hc : (⟨3, ![B, T, w]⟩ : Shape).BroadcastsInDim ⟨4, ![B, T, w, 1]⟩ ![0, 1, 2]) (b : Fin B) (t : Fin T) (h : Fin w)
    (z : Fin 1) :
    broadcastInDim ⟨4, ![B, T, w, 1]⟩ ![0, 1, 2] hc x (ix4 b t h z) = x (ix3 b t h) := by
  refine broadcastInDim_apply ![0, 1, 2] hc x (ix4 b t h z) (ix3 b t h) fun a => ?_
  match a with
  | ⟨0, _⟩ =>
    show b.val = if B = 1 then 0 else b.val
    split
    · have := b.isLt; omega
    · rfl
  | ⟨1, _⟩ =>
    show t.val = if T = 1 then 0 else t.val
    split
    · have := t.isLt; omega
    · rfl
  | ⟨2, _⟩ =>
    show h.val = if w = 1 then 0 else h.val
    split
    · have := h.isLt; omega
    · rfl

/-- The pair axis filled by a VECTOR BROADCAST of an array whose last axis is a unit: both members of pair `h` read
    entry `(b, t, h, 0)`. -/
theorem to_pair_apply (y : (⟨4, ![B, T, w, 1]⟩ : Shape).Idx → α)
    (hb : (⟨4, ![B, T, w, 1]⟩ : Shape).Broadcasts ⟨4, ![B, T, w, 2]⟩) (b : Fin B) (t : Fin T) (h : Fin w) (s : Fin 2) :
    broadcastTo ⟨4, ![B, T, w, 2]⟩ y hb (ix4 b t h s) = y (ix4 b t h 0) := by
  refine broadcastTo_apply y hb (ix4 b t h s) (ix4 b t h 0) fun a => ?_
  match a with
  | ⟨0, _⟩ =>
    show b.val = if B = 1 then 0 else b.val
    split
    · have := b.isLt; omega
    · rfl
  | ⟨1, _⟩ =>
    show t.val = if T = 1 then 0 else t.val
    split
    · have := t.isLt; omega
    · rfl
  | ⟨2, _⟩ =>
    show h.val = if w = 1 then 0 else h.val
    split
    · have := h.isLt; omega
    · rfl
  | ⟨3, _⟩ =>
    show 0 = if (1 : ℕ) = 1 then 0 else s.val
    rw [if_pos rfl]

/-- The pair axis filled by `broadcast_in_dim` along all four axes: the same entry. -/
theorem bcast_pair_apply (y : (⟨4, ![B, T, w, 1]⟩ : Shape).Idx → α)
    (hb : (⟨4, ![B, T, w, 1]⟩ : Shape).BroadcastsInDim ⟨4, ![B, T, w, 2]⟩ ![0, 1, 2, 3]) (b : Fin B) (t : Fin T)
    (h : Fin w) (s : Fin 2) :
    broadcastInDim ⟨4, ![B, T, w, 2]⟩ ![0, 1, 2, 3] hb y (ix4 b t h s) = y (ix4 b t h 0) := by
  refine broadcastInDim_apply ![0, 1, 2, 3] hb y (ix4 b t h s) (ix4 b t h 0) fun a => ?_
  match a with
  | ⟨0, _⟩ =>
    show b.val = if B = 1 then 0 else b.val
    split
    · have := b.isLt; omega
    · rfl
  | ⟨1, _⟩ =>
    show t.val = if T = 1 then 0 else t.val
    split
    · have := t.isLt; omega
    · rfl
  | ⟨2, _⟩ =>
    show h.val = if w = 1 then 0 else h.val
    split
    · have := h.isLt; omega
    · rfl
  | ⟨3, _⟩ =>
    show 0 = if (1 : ℕ) = 1 then 0 else s.val
    rw [if_pos rfl]

/-- Two arrays with a trailing unit axis JOINED along it: member `0` of pair `h` is the first array's entry, member
    `1` the second's. -/
theorem join_pair_apply (y0 y1 : (⟨4, ![B, T, w, 1]⟩ : Shape).Idx → α)
    (hcat : Shape.Concatenates [(⟨4, ![B, T, w, 1]⟩ : Shape), ⟨4, ![B, T, w, 1]⟩] ⟨4, ![B, T, w, 2]⟩ 3)
    (b : Fin B) (t : Fin T) (h : Fin w) (s : Fin 2) :
    concatenate ⟨4, ![B, T, w, 2]⟩ 3 [⟨⟨4, ![B, T, w, 1]⟩, y0⟩, ⟨⟨4, ![B, T, w, 1]⟩, y1⟩] hcat (ix4 b t h s)
      = if s.val = 0 then y0 (ix4 b t h 0) else y1 (ix4 b t h 0) := by
  by_cases hs : s.val = 0
  · rw [if_pos hs]
    refine concatenate_pair_apply_left (3 : Fin 4) y0 y1 hcat (ix4 b t h s) rfl (ix4 b t h 0) fun a => ?_
    match a with
    | ⟨0, _⟩ => rfl
    | ⟨1, _⟩ => rfl
    | ⟨2, _⟩ => rfl
    | ⟨3, _⟩ => exact hs.symm
  · rw [if_neg hs]
    refine concatenate_pair_apply_right (3 : Fin 4) y0 y1 hcat (ix4 b t h s) rfl rfl (ix4 b t h 0) (fun a ha => ?_) ?_
    · match a with
      | ⟨0, _⟩ => rfl
      | ⟨1, _⟩ => rfl
      | ⟨2, _⟩ => rfl
      | ⟨3, _⟩ => exact absurd rfl ha
    · show 0 + 1 = s.val
      have := s.isLt
      omega

/-- The pair axis FLATTENED into the axis before it: entry `k` of the flat axis of extent `2 * w` is member `k % 2` of
    pair `k / 2` (the row-major position is kept, and `2 * (k / 2) + k % 2 = k`). -/
theorem flatten_pair_apply {w2 : ℕ} (hw : w2 = 2 * w) (v : (⟨4, ![B, T, w, 2]⟩ : Shape).Idx → α)
    (hr : (⟨4, ![B, T, w, 2]⟩ : Shape).ShapeCasts ⟨3, ![B, T, w2]⟩) (b : Fin B) (t : Fin T) (k : Fin w2) :
    shapeCast ⟨3, ![B, T, w2]⟩ v hr (ix3 b t k)
      = v (ix4 b t ⟨k.val / 2, by have := k.isLt; omega⟩ ⟨k.val % 2, Nat.mod_lt _ (by decide)⟩) := by
  refine shapeCast_apply v hr (ix3 b t k) _ ?_
  rw [Shape.rowMajor_val_four, Shape.rowMajor_val_three]
  show ((b.val * T + t.val) * w + k.val / 2) * 2 + k.val % 2 = (b.val * T + t.val) * w2 + k.val
  subst hw
  have e : (b.val * T + t.val) * (2 * w) = 2 * ((b.val * T + t.val) * w) := by ring
  omega

/-! ## The interleave times a repeated factor, in the two spellings -/

section Product
variable {φ : FTy} {w2 : ℕ}

/-- A KERNEL's spelling — shape casts add the unit axis, a vector broadcast fills the pair axis —, at the exact
    extended reals: entry `k` is `p` at `k / 2` times `y0` there when `k` is even, `y1` there when `k` is odd. -/
theorem cast_interleave_mul_apply (hw : w2 = 2 * w) (p y0 y1 : FVec Ideal ⟨3, ![B, T, w]⟩ φ)
    (hc : (⟨3, ![B, T, w]⟩ : Shape).ShapeCasts ⟨4, ![B, T, w, 1]⟩)
    (hcat : Shape.Concatenates [(⟨4, ![B, T, w, 1]⟩ : Shape), ⟨4, ![B, T, w, 1]⟩] ⟨4, ![B, T, w, 2]⟩ 3)
    (hb : (⟨4, ![B, T, w, 1]⟩ : Shape).Broadcasts ⟨4, ![B, T, w, 2]⟩)
    (hr : (⟨4, ![B, T, w, 2]⟩ : Shape).ShapeCasts ⟨3, ![B, T, w2]⟩) (b : Fin B) (t : Fin T) (k : Fin w2) :
    shapeCast ⟨3, ![B, T, w2]⟩
        (mulf (broadcastTo ⟨4, ![B, T, w, 2]⟩ (shapeCast ⟨4, ![B, T, w, 1]⟩ p hc) hb)
          (concatenate ⟨4, ![B, T, w, 2]⟩ 3
            [⟨⟨4, ![B, T, w, 1]⟩, shapeCast ⟨4, ![B, T, w, 1]⟩ y0 hc⟩, ⟨⟨4, ![B, T, w, 1]⟩, shapeCast ⟨4, ![B, T, w, 1]⟩ y1 hc⟩]
            hcat)) hr (ix3 b t k)
      = p (ix3 b t ⟨k.val / 2, by have := k.isLt; omega⟩)
        * (if k.val % 2 = 0 then y0 (ix3 b t ⟨k.val / 2, by have := k.isLt; omega⟩)
            else y1 (ix3 b t ⟨k.val / 2, by have := k.isLt; omega⟩)) := by
  rw [flatten_pair_apply hw, mulf_apply, to_pair_apply, cast_addLast_apply, join_pair_apply, cast_addLast_apply,
    cast_addLast_apply]

/-- A HOST program's spelling — `broadcast_in_dim` adds the unit axis and fills the pair axis —: the same entry. -/
theorem bcast_interleave_mul_apply (hw : w2 = 2 * w) (p y0 y1 : FVec Ideal ⟨3, ![B, T, w]⟩ φ)
    (hc : (⟨3, ![B, T, w]⟩ : Shape).BroadcastsInDim ⟨4, ![B, T, w, 1]⟩ ![0, 1, 2])
    (hcat : Shape.Concatenates [(⟨4, ![B, T, w, 1]⟩ : Shape), ⟨4, ![B, T, w, 1]⟩] ⟨4, ![B, T, w, 2]⟩ 3)
    (hb : (⟨4, ![B, T, w, 1]⟩ : Shape).BroadcastsInDim ⟨4, ![B, T, w, 2]⟩ ![0, 1, 2, 3])
    (hr : (⟨4, ![B, T, w, 2]⟩ : Shape).ShapeCasts ⟨3, ![B, T, w2]⟩) (b : Fin B) (t : Fin T) (k : Fin w2) :
    shapeCast ⟨3, ![B, T, w2]⟩
        (mulf (broadcastInDim ⟨4, ![B, T, w, 2]⟩ ![0, 1, 2, 3] hb (broadcastInDim ⟨4, ![B, T, w, 1]⟩ ![0, 1, 2] hc p))
          (concatenate ⟨4, ![B, T, w, 2]⟩ 3
            [⟨⟨4, ![B, T, w, 1]⟩, broadcastInDim ⟨4, ![B, T, w, 1]⟩ ![0, 1, 2] hc y0⟩,
             ⟨⟨4, ![B, T, w, 1]⟩, broadcastInDim ⟨4, ![B, T, w, 1]⟩ ![0, 1, 2] hc y1⟩]
            hcat)) hr (ix3 b t k)
      = p (ix3 b t ⟨k.val / 2, by have := k.isLt; omega⟩)
        * (if k.val % 2 = 0 then y0 (ix3 b t ⟨k.val / 2, by have := k.isLt; omega⟩)
            else y1 (ix3 b t ⟨k.val / 2, by have := k.isLt; omega⟩)) := by
  rw [flatten_pair_apply hw, mulf_apply, bcast_pair_apply, bcast_addLast_apply, join_pair_apply, bcast_addLast_apply,
    bcast_addLast_apply]

end Product

end Idealize.ShloMosaic.Interleave

end
-- ==== Proof.SoftTree.lean ====
/-
  THE SOFT DECISION TREE, as mathematics. A tree of depth 10 has 1023 forks, numbered level by level: level `i` (the root is
  level 0) holds the forks `2^i - 1, …, 2^(i+1) - 2`, and node `h` of level `i` is fork `2^i - 1 + h`. Fork `n` sends the
  fraction `σ n` of the probability mass that reaches it to its right child and `1 - σ n` to its left child; the children
  of node `h` of a level are the nodes `2 h` (left) and `2 h + 1` (right) of the next level. Starting from mass `1` at the
  root, the mass at node `k` of level `i + 1` is therefore the mass at its parent `k / 2` times the parent fork's decision
  towards `k`: `frontier`. The output of a tree is the total mass that the 512 forks of the last level (level 9) send to
  their right children: `rightMass`.

  The input array has one row per batch element; the 1023 logits of tree `t` are the columns `1023 t, …, 1023 t + 1022` of the
  row, and `σ` is the logistic function of the logit: `fork`, `treeOut`. Everything is over the extended reals, where the
  logistic function is total (0 at -∞, 1 at +∞).
-/
import Idealize.ShloMosaic.PureOps.Ideal
import Idealize.ShloMosaic.Lib.ValueIdx

noncomputable section

namespace SoftTree

open Idealize.ShloMosaic Idealize.ShloMosaic.ValueIdx

/-- The probability mass at node `k` of level `i`, for decisions `σ` numbered by fork: `1` at the root; at a node of the
    next level, the parent's mass times the parent fork's share towards this child — `1 - σ` to the left (even)
    child, `σ` to the right (odd) one. -/
def frontier (σ : ℕ → EReal) : ℕ → ℕ → EReal
  | 0, _ => 1
  | i + 1, k => frontier σ i (k / 2) * (if k % 2 = 0 then 1 - σ (2 ^ i - 1 + k / 2) else σ (2 ^ i - 1 + k / 2))

theorem frontier_zero (σ : ℕ → EReal) (k : ℕ) : frontier σ 0 k = 1 := rfl

theorem frontier_succ (σ : ℕ → EReal) (i k : ℕ) :
    frontier σ (i + 1) k
      = frontier σ i (k / 2) * (if k % 2 = 0 then 1 - σ (2 ^ i - 1 + k / 2) else σ (2 ^ i - 1 + k / 2)) := rfl

/-- What a tree returns: the mass its last level's 512 forks (the forks `511 + k`) send to the right. -/
def rightMass (σ : ℕ → EReal) : EReal := ∑ k : Fin 512, frontier σ 9 k.val * σ (511 + k.val)

/-- The decision of fork `n` of tree `t` in row `b` of an array with `C` columns: the logistic function of the entry in
    column `1023 t + n` (and `0` past the row's end, where no fork is read). -/
def fork {R C : ℕ} (x : (⟨2, ![R, C]⟩ : Shape).Idx → EReal) (b : Fin R) (t n : ℕ) : EReal :=
  if h : t * 1023 + n < C then Ideal.logistic (x (ix2 b ⟨t * 1023 + n, h⟩)) else 0

/-- The output for row `b` and tree `t`. -/
def treeOut {R C : ℕ} (x : (⟨2, ![R, C]⟩ : Shape).Idx → EReal) (b : Fin R) (t : ℕ) : EReal :=
  rightMass (fork x b t)

/-- The whole output array: entry `(b, t)` is the output for row `b` and tree `t`. -/
def forest {R C Tn : ℕ} (x : (⟨2, ![R, C]⟩ : Shape).Idx → EReal) : (⟨2, ![R, Tn]⟩ : Shape).Idx → EReal :=
  fun j => treeOut x (j 0) (j 1).val

theorem forest_ix2 {R C Tn : ℕ} (x : (⟨2, ![R, C]⟩ : Shape).Idx → EReal) (b : Fin R) (t : Fin Tn) :
    forest x (ix2 b t) = treeOut x b t.val := rfl

/-- A fork's decision inside the row, without the case distinction. -/
theorem fork_of_lt {R C : ℕ} (x : (⟨2, ![R, C]⟩ : Shape).Idx → EReal) (b : Fin R) (t n : ℕ) (h : t * 1023 + n < C) :
    fork x b t n = Ideal.logistic (x (ix2 b ⟨t * 1023 + n, h⟩)) := dif_pos h

/-- Rows that agree entry by entry give the same decisions: a block of consecutive rows of an array computes the
    array's own trees. -/
theorem fork_congr {R R' C : ℕ} (x : (⟨2, ![R, C]⟩ : Shape).Idx → EReal) (x' : (⟨2, ![R', C]⟩ : Shape).Idx → EReal)
    (b : Fin R) (b' : Fin R') (hx : ∀ c : Fin C, x (ix2 b c) = x' (ix2 b' c)) (t : ℕ) : fork x b t = fork x' b' t := by
  funext n
  unfold fork
  split
  · rw [hx]
  · rfl

end SoftTree

end
-- ==== Proof.TreeLevel.lean ====
/-
  ONE LEVEL OF THE TREE as the two programs compute it. Both keep the masses of a level as an array `p` of shape
  [B, T, w] (`w = 2^i` nodes for each batch row and tree), take the level's decisions `d` (the logistic function of
  `w` consecutive logits of every tree), pair `1 - d` with `d` on a new last axis, multiply by `p` repeated on the
  pair, and flatten to [B, T, 2w]. Read at an index that is the interleave of LibInterleave.lean, and the interleave is
  exactly the recursion of `SoftTree.frontier`: entry `k` is the parent's mass (entry `k / 2`) times `1 - d` for an even
  `k` (the left child) and `d` for an odd one. So if `p` holds level `i` of the frontier and the two paired arrays hold the
  two shares of the forks `2^i - 1 + h`, the result holds level `i + 1` — in a kernel's spelling (`cast_level`) and in a host
  program's (`bcast_level`). The last lemma reads a level's decisions: `m` consecutive entries of the last axis of the
  [B, T, 1023] view of the logits, from fork `o` on.
-/
import proofs.«155367_j82162724372480_1_alg».proof.Proof.LibInterleave
import proofs.«155367_j82162724372480_1_alg».proof.Proof.SoftTree

noncomputable section

namespace SoftTree

open Idealize.ShloMosaic Idealize.ShloMosaic.ValueIdx Idealize.ShloMosaic.Interleave

variable {B T w w2 : ℕ} {φ : FTy}

/-- A level in a KERNEL's spelling (shape casts and a vector broadcast). -/
theorem cast_level (hw : w2 = 2 * w) (σ : ℕ → EReal) (i : ℕ) (p y0 y1 : FVec Ideal ⟨3, ![B, T, w]⟩ φ)
    (hc : (⟨3, ![B, T, w]⟩ : Shape).ShapeCasts ⟨4, ![B, T, w, 1]⟩)
    (hcat : Shape.Concatenates [(⟨4, ![B, T, w, 1]⟩ : Shape), ⟨4, ![B, T, w, 1]⟩] ⟨4, ![B, T, w, 2]⟩ 3)
    (hb : (⟨4, ![B, T, w, 1]⟩ : Shape).Broadcasts ⟨4, ![B, T, w, 2]⟩)
    (hr : (⟨4, ![B, T, w, 2]⟩ : Shape).ShapeCasts ⟨3, ![B, T, w2]⟩) (b : Fin B) (t : Fin T)
    (hp : ∀ h : Fin w, p (ix3 b t h) = frontier σ i h.val)
    (h0 : ∀ h : Fin w, y0 (ix3 b t h) = 1 - σ (2 ^ i - 1 + h.val))
    (h1 : ∀ h : Fin w, y1 (ix3 b t h) = σ (2 ^ i - 1 + h.val)) (k : Fin w2) :
    shapeCast ⟨3, ![B, T, w2]⟩
        (mulf (broadcastTo ⟨4, ![B, T, w, 2]⟩ (shapeCast ⟨4, ![B, T, w, 1]⟩ p hc) hb)
          (concatenate ⟨4, ![B, T, w, 2]⟩ 3
            [⟨⟨4, ![B, T, w, 1]⟩, shapeCast ⟨4, ![B, T, w, 1]⟩ y0 hc⟩, ⟨⟨4, ![B, T, w, 1]⟩, shapeCast ⟨4, ![B, T, w, 1]⟩ y1 hc⟩]
            hcat)) hr (ix3 b t k)
      = frontier σ (i + 1) k.val := by
  rw [cast_interleave_mul_apply hw, hp, h0, h1, frontier_succ]

/-- A level in a HOST program's spelling (`broadcast_in_dim` twice). -/
theorem bcast_level (hw : w2 = 2 * w) (σ : ℕ → EReal) (i : ℕ) (p y0 y1 : FVec Ideal ⟨3, ![B, T, w]⟩ φ)
    (hc : (⟨3, ![B, T, w]⟩ : Shape).BroadcastsInDim ⟨4, ![B, T, w, 1]⟩ ![0, 1, 2])
    (hcat : Shape.Concatenates [(⟨4, ![B, T, w, 1]⟩ : Shape), ⟨4, ![B, T, w, 1]⟩] ⟨4, ![B, T, w, 2]⟩ 3)
    (hb : (⟨4, ![B, T, w, 1]⟩ : Shape).BroadcastsInDim ⟨4, ![B, T, w, 2]⟩ ![0, 1, 2, 3])
    (hr : (⟨4, ![B, T, w, 2]⟩ : Shape).ShapeCasts ⟨3, ![B, T, w2]⟩) (b : Fin B) (t : Fin T)
    (hp : ∀ h : Fin w, p (ix3 b t h) = frontier σ i h.val)
    (h0 : ∀ h : Fin w, y0 (ix3 b t h) = 1 - σ (2 ^ i - 1 + h.val))
    (h1 : ∀ h : Fin w, y1 (ix3 b t h) = σ (2 ^ i - 1 + h.val)) (k : Fin w2) :
    shapeCast ⟨3, ![B, T, w2]⟩
        (mulf (broadcastInDim ⟨4, ![B, T, w, 2]⟩ ![0, 1, 2, 3] hb (broadcastInDim ⟨4, ![B, T, w, 1]⟩ ![0, 1, 2] hc p))
          (concatenate ⟨4, ![B, T, w, 2]⟩ 3
            [⟨⟨4, ![B, T, w, 1]⟩, broadcastInDim ⟨4, ![B, T, w, 1]⟩ ![0, 1, 2] hc y0⟩,
             ⟨⟨4, ![B, T, w, 1]⟩, broadcastInDim ⟨4, ![B, T, w, 1]⟩ ![0, 1, 2] hc y1⟩]
            hcat)) hr (ix3 b t k)
      = frontier σ (i + 1) k.val := by
  rw [bcast_interleave_mul_apply hw, hp, h0, h1, frontier_succ]

/-- `m` consecutive entries of the last axis of an array [B, T, N], from entry `o` on: entry `h` of the slice is
    entry `o + h` of the array. -/
theorem slice_last_apply {α : Type} {N m : ℕ} (o : ℕ) (v : (⟨3, ![B, T, N]⟩ : Shape).Idx → α)
    (hs : (⟨3, ![B, T, N]⟩ : Shape).Slices ![0, 0, o] ⟨3, ![B, T, m]⟩) (b : Fin B) (t : Fin T) (h : Fin m)
    (hlt : o + h.val < N) :
    extractStridedSlice ⟨3, ![B, T, m]⟩ ![0, 0, o] v hs (ix3 b t h) = v (ix3 b t ⟨o + h.val, hlt⟩) := by
  refine extractStridedSlice_apply ![0, 0, o] v hs (ix3 b t h) _ fun a => ?_
  match a with
  | ⟨0, _⟩ => show b.val = 0 + b.val; omega
  | ⟨1, _⟩ => show t.val = 0 + t.val; omega
  | ⟨2, _⟩ => rfl

end SoftTree

end
-- ==== Proof.KernelTree.lean ====
/-
  WHAT THE KERNEL BODY COMPUTES FROM ONE BLOCK. A block is 32 consecutive rows of the input, each row the 64 × 1023 logits
  of its 64 trees. The body views the block as [32, 64, 1023] (a reshape keeps the row-major position, so entry
  `(b, t, n)` of the view is column `1023 t + n` of row `b`), and climbs the tree: from the root's mass `1` it builds the
  masses of levels 1, …, 9 — level `i + 1` from level `i` and the logistic function of the forks `2^i - 1, …, 2^(i+1) - 2`,
  one interleave per level (TreeLevel.lean) — and returns, for every row and tree, the sum over the 512 nodes of level 9
  of the node's mass times its fork's decision `σ (511 + k)`: the mass sent right at the last level, which is
  `SoftTree.treeOut` of the block.
-/
import proofs.«155367_j82162724372480_1_alg».proof.Proof.Gen.KernelIdeal.Skeleton
import proofs.«155367_j82162724372480_1_alg».proof.Proof.TreeLevel
import Idealize.ShloMosaic.PureOps.Ideal.Laws
import Idealize.ShloMosaic.Lib.IdealHost

noncomputable section

namespace Cert.KernelIdeal.TreeValue

open Cert.KernelIdeal Cert.KernelIdeal.Gen Idealize.ShloMosaic Idealize.ShloMosaic.ValueIdx SoftTree

/-- `1 - d` entry by entry: the constant the body subtracts from is the float one. -/
theorem one_sub_apply {s : Shape} (d : FVec Ideal s .f32) (i : s.Idx) :
    subf (broadcast s (Scalar.ofBits (F := Ideal) .f32 0x3F800000#32)) d i = 1 - d i := by
  show Ideal.ofBits .f32 0x3F800000#32 - d i = 1 - d i
  rw [Ideal.ofBits_one_f32]

/-- The [32, 64, 1023] view of a block: fork `n` of tree `t` in row `b` is column `1023 t + n` of the row. -/
theorem view_apply (x0 : Vec Ideal S32x65472 .f32) (b : Fin 32) (t : Fin 64) (n : Fin 1023) :
    k0_pay1 x0 (ix3 b t n) = x0 (ix2 b ⟨t.val * 1023 + n.val, by have := t.isLt; have := n.isLt; omega⟩) := by
  unfold k0_pay1
  refine shapeCast_apply x0 _ (ix3 b t n) _ ?_
  rw [Shape.rowMajor_val_two, Shape.rowMajor_val_three]
  show b.val * 65472 + (t.val * 1023 + n.val) = (b.val * 64 + t.val) * 1023 + n.val
  omega

/-- The decisions of `m` consecutive forks from fork `o` on: the logistic function of that slice of the view. -/
theorem decision (x0 : Vec Ideal S32x65472 .f32) {m : ℕ} (o : ℕ)
    (hs : S32x64x1023.Slices ![0, 0, o] ⟨3, ![32, 64, m]⟩) (ho : o + m ≤ 1023) (b : Fin 32) (t : Fin 64) (h : Fin m) :
    logistic (extractStridedSlice ⟨3, ![32, 64, m]⟩ ![0, 0, o] (k0_pay1 x0) hs) (ix3 b t h) = fork x0 b t.val (o + h.val) := by
  have hlt : o + h.val < 1023 := by have := h.isLt; omega
  show Ideal.logistic (extractStridedSlice ⟨3, ![32, 64, m]⟩ ![0, 0, o] (k0_pay1 x0) hs (ix3 b t h)) = _
  rw [slice_last_apply o (k0_pay1 x0) hs b t h hlt, view_apply x0 b t ⟨o + h.val, hlt⟩,
    fork_of_lt x0 b t.val (o + h.val) (by have := t.isLt; show t.val * 1023 + (o + h.val) < 65472; omega)]

/-- The other share: `1` minus those decisions. -/
theorem decision_compl (x0 : Vec Ideal S32x65472 .f32) {m : ℕ} (o : ℕ)
    (hs : S32x64x1023.Slices ![0, 0, o] ⟨3, ![32, 64, m]⟩) (ho : o + m ≤ 1023) (b : Fin 32) (t : Fin 64) (h : Fin m) :
    subf (broadcast ⟨3, ![32, 64, m]⟩ (Scalar.ofBits (F := Ideal) .f32 0x3F800000#32))
        (logistic (extractStridedSlice ⟨3, ![32, 64, m]⟩ ![0, 0, o] (k0_pay1 x0) hs)) (ix3 b t h)
      = 1 - fork x0 b t.val (o + h.val) := by
  rw [one_sub_apply, decision x0 o hs ho]

/-- LEVELS 1 TO 4, the first part of the body: its result holds the masses of the 16 nodes of level 4. -/
theorem level4 (x0 : Vec Ideal S32x65472 .f32) (b : Fin 32) (t : Fin 64) (k : Fin 16) :
    k0_pay2 x0 (ix3 b t k) = frontier (fork x0 b t.val) 4 k.val := by
  unfold k0_pay2
  refine cast_level (w := 8) (w2 := 16) rfl (fork x0 b t.val) 3 _ _ _ _ _ _ _ b t (fun h => ?_) (fun h => ?_) (fun h => ?_) k
  · refine cast_level (w := 4) (w2 := 8) rfl (fork x0 b t.val) 2 _ _ _ _ _ _ _ b t (fun h => ?_) (fun h => ?_) (fun h => ?_) h
    · refine cast_level (w := 2) (w2 := 4) rfl (fork x0 b t.val) 1 _ _ _ _ _ _ _ b t (fun h => ?_) (fun h => ?_) (fun h => ?_) h
      · refine cast_level (w := 1) (w2 := 2) rfl (fork x0 b t.val) 0 _ _ _ _ _ _ _ b t (fun h => ?_) (fun h => ?_) (fun h => ?_) h
        · exact Ideal.ofBits_one_f32
        · exact decision_compl x0 0 _ (by decide) b t h
        · exact decision x0 0 _ (by decide) b t h
      · exact decision_compl x0 1 _ (by decide) b t h
      · exact decision x0 1 _ (by decide) b t h
    · exact decision_compl x0 3 _ (by decide) b t h
    · exact decision x0 3 _ (by decide) b t h
  · exact decision_compl x0 7 _ (by decide) b t h
  · exact decision x0 7 _ (by decide) b t h

/-- The decisions of level 4 (the forks 15, …, 30), which the first part of the body hands to the second, -/
theorem decision4 (x0 : Vec Ideal S32x65472 .f32) (b : Fin 32) (t : Fin 64) (h : Fin 16) :
    k0_pay3 x0 (ix3 b t h) = fork x0 b t.val (15 + h.val) := by
  unfold k0_pay3
  exact decision x0 15 _ (by decide) b t h

/-- and the other share. -/
theorem decision4_compl (x0 : Vec Ideal S32x65472 .f32) (b : Fin 32) (t : Fin 64) (h : Fin 16) :
    k0_pay4 x0 (ix3 b t h) = 1 - fork x0 b t.val (15 + h.val) := by
  unfold k0_pay4
  rw [one_sub_apply, decision4]

/-- The sum over the last axis of a [32, 64, 512] array, entry `(b, t)`: the 512 entries `(b, t, k)`. -/
theorem lane_sum_apply (v : FVec Ideal S32x64x512 .f32) (b : Fin 32) (t : Fin 64) :
    multiReduction .add [2] S32x64 v 0x00000000#32 reduces_S32x64x512_S32x64 (.inl rfl) rfl (ix2 b t)
      = ∑ k : Fin 512, v (ix3 b t k) := by
  refine (Ideal.multiReduction_add_single v 0x00000000#32 reduces_S32x64x512_S32x64 (.inl rfl) rfl (ix2 b t)).trans ?_
  refine Finset.sum_congr rfl fun k _ => congrArg v (funext fun a => Fin.ext ?_)
  match a with
  | ⟨0, _⟩ => rfl
  | ⟨1, _⟩ => rfl
  | ⟨2, _⟩ => rfl

/-- THE BODY'S RESULT, entry `(b, t)`: levels 5 to 9 on top of level 4, each node of level 9 weighted by its fork's
    decision, summed — the output of tree `t` for row `b` of the block. -/
theorem body_eq (x0 : Vec Ideal S32x65472 .f32) (b : Fin 32) (t : Fin 64) :
    k0_pay5 (k0_pay1 x0) (k0_pay2 x0) (k0_pay3 x0) (k0_pay4 x0) (ix2 b t) = treeOut x0 b t.val := by
  unfold k0_pay5
  refine (lane_sum_apply _ b t).trans ?_
  unfold treeOut rightMass
  refine Finset.sum_congr rfl fun k _ => ?_
  refine (mulf_apply _ _ _).trans ?_
  congr 1
  · refine cast_level (w := 256) (w2 := 512) rfl (fork x0 b t.val) 8 _ _ _ _ _ _ _ b t (fun h => ?_) (fun h => ?_) (fun h => ?_) k
    · refine cast_level (w := 128) (w2 := 256) rfl (fork x0 b t.val) 7 _ _ _ _ _ _ _ b t (fun h => ?_) (fun h => ?_) (fun h => ?_) h
      · refine cast_level (w := 64) (w2 := 128) rfl (fork x0 b t.val) 6 _ _ _ _ _ _ _ b t (fun h => ?_) (fun h => ?_) (fun h => ?_) h
        · refine cast_level (w := 32) (w2 := 64) rfl (fork x0 b t.val) 5 _ _ _ _ _ _ _ b t (fun h => ?_) (fun h => ?_) (fun h => ?_) h
          · exact cast_level (w := 16) (w2 := 32) rfl (fork x0 b t.val) 4 _ _ _ _ _ _ _ b t (fun h => level4 x0 b t h)
              (fun h => decision4_compl x0 b t h) (fun h => decision4 x0 b t h) h
          · exact decision_compl x0 31 _ (by decide) b t h
          · exact decision x0 31 _ (by decide) b t h
        · exact decision_compl x0 63 _ (by decide) b t h
        · exact decision x0 63 _ (by decide) b t h
      · exact decision_compl x0 127 _ (by decide) b t h
      · exact decision x0 127 _ (by decide) b t h
    · exact decision_compl x0 255 _ (by decide) b t h
    · exact decision x0 255 _ (by decide) b t h
  · exact decision x0 511 _ (by decide) b t k

end Cert.KernelIdeal.TreeValue

end
-- ==== Proof.KernelArray.lean ====
/-
  FROM BLOCKS TO THE ARRAY. The kernel runs over 64 grid points; point `g` reads the rows `32 g, …, 32 g + 31` of the
  input (whole rows) and writes the same rows of the output. A tree's output depends on its own row only, so what the
  body computes from a block (KernelTree.lean) is the block of ONE function of the whole input — `SoftTree.forest`, the
  output of every tree of every row. The 64 row blocks cover the output (row `r` lies in block `r / 32`), so after the run
  the output array is `forest` of the input array.
-/
import proofs.«155367_j82162724372480_1_alg».proof.Proof.Gen.KernelIdeal.Value
import proofs.«155367_j82162724372480_1_alg».proof.Proof.KernelTree

set_option maxRecDepth 16384

noncomputable section

namespace Cert.KernelIdeal.TreeValue

open Cert.KernelIdeal Cert.KernelIdeal.Gen Idealize.ShloMosaic Idealize.ShloMosaic.TcCoe Idealize.SL.Sem
open Idealize.ShloMosaic.ValueIdx SoftTree
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 64 points: at point `t` both windows are at block row `t`, block column
    `0`. -/
theorem block_row : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A row of a block that is a row of the array gives the array's trees. -/
theorem treeOut_row (xb : FVec Ideal S32x65472 .f32) (x : FVec Ideal S2048x65472 .f32) (jb : Fin 32) (r : Fin 2048)
    (hx : ∀ col : Fin 65472, xb (ix2 jb col) = x (ix2 r col)) (jt : ℕ) : treeOut xb jb jt = treeOut x r jt := by
  unfold treeOut
  rw [fork_congr xb x jb r hx jt]

/-- WHAT POINT `t` WRITES BACK is block `t` of `forest` of the input array as the region finds it. -/
theorem flushed_eq (c : Dev nD) (t : Fin cfg0.N) :
    (dats m 0 c).flushed 1 t
      = ((cfg0.win 1).blk t).view.read (Elt Ideal) (forest (R := 2048) (C := 65472) (Tn := 64) (V m c main_arg0)) := by
  rw [Cert.KernelIdeal.Value.flushed1]
  unfold out0_1
  rw [View.canon_unit_zero origin]
  simp only [View.ld_unit_zero (S := S32x65472) origin]
  obtain ⟨e0, e1, e2, e3⟩ := block_row t
  funext j
  obtain ⟨jb, jt, rfl⟩ : ∃ (jb : Fin 32) (jt : Fin 64), j = ix2 jb jt := ⟨j 0, j 1, eq_ix2 j⟩
  have hN : t.val < 64 := lt_of_lt_of_eq t.isLt N_0
  -- the row of the array under row `jb` of the block
  let r : Fin 2048 := ⟨t.val * 32 + jb.val, by have := jb.isLt; omega⟩
  have hemb : ((cfg0.win 1).blk t).view.emb (ix2 jb jt) = ix2 r jt := by
    funext a
    apply Fin.ext
    match a with
    | ⟨0, _⟩ => show win0_1.index t (0 : Fin 2) * 32 + 1 * jb.val = t.val * 32 + jb.val; omega
    | ⟨1, _⟩ => show win0_1.index t (1 : Fin 2) * 64 + 1 * jt.val = jt.val; omega
  show k0_pay5 (k0_pay1 (iblk m c 0 t)) (k0_pay2 (iblk m c 0 t)) (k0_pay3 (iblk m c 0 t)) (k0_pay4 (iblk m c 0 t)) (ix2 jb jt)
    = forest (R := 2048) (C := 65472) (Tn := 64) (V m c main_arg0) (((cfg0.win 1).blk t).view.emb (ix2 jb jt))
  rw [hemb, forest_ix2]
  refine (body_eq (iblk m c 0 t) jb jt).trans ?_
  refine treeOut_row (iblk m c 0 t) (V m c main_arg0) jb r (fun col => ?_) jt.val
  show V m c main_arg0 (((cfg0.win 0).blk t).view.emb (ix2 jb col)) = V m c main_arg0 (ix2 r col)
  refine congrArg (V m c main_arg0) (funext fun a => Fin.ext ?_)
  match a with
  | ⟨0, _⟩ => show win0_0.index t (0 : Fin 2) * 32 + 1 * jb.val = t.val * 32 + jb.val; omega
  | ⟨1, _⟩ => show win0_0.index t (1 : Fin 2) * 65472 + 1 * col.val = col.val; omega

/-- An index of the output array is in point `t`'s block iff each coordinate is in the block's range on its axis. -/
theorem mem_blk (t : Fin cfg0.N) (i : S2048x64.Idx) :
    i ∈ ((cfg0.win 1).blk t).view.set
      ↔ ∀ a : Fin 2, win0_1.index t a * S32x64.size a ≤ (i a).val ∧ (i a).val < win0_1.index t a * S32x64.size a + S32x64.size a := by
  show i ∈ ((View.whole main_v0).slice (win0_1.rect t)).set ↔ _
  rw [View.set_slice_whole, Rect.mem_set_unit]
  exact Iff.rfl

/-- THE COVER: row `r` of the output is written by point `r / 32`. -/
theorem cover (i : S2048x64.Idx) : ∃ t : Fin cfg0.N, (cfg0.win 1).flush t = true ∧ i ∈ ((cfg0.win 1).blk t).view.set := by
  have hi0 : (i 0).val < 2048 := (i 0).isLt
  have hi1 : (i 1).val < 64 := (i 1).isLt
  let t : Fin cfg0.N := ⟨(i 0).val / 32, by rw [show cfg0.N = 64 from N_0]; omega⟩
  obtain ⟨-, -, e2, e3⟩ := block_row t
  have ht : t.val = (i 0).val / 32 := rfl
  refine ⟨t, flush0_1 t, ?_⟩
  rw [mem_blk]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 64 ≤ (i 1).val ∧ (i 1).val < win0_1.index t (1 : Fin 2) * 64 + 64; omega

/-- THE OUTPUT ARRAY after the run: `forest` of the input array. -/
theorem final (c : Dev nD) :
    (dats m 0 c).arrAt 1 cfg0.N = forest (R := 2048) (C := 65472) (Tn := 64) (m ((c : Thread nD τ).loc main_arg0)) :=
  (dats m 0 c).arrAt_eq_of_cover 1 (forest (R := 2048) (C := 65472) (Tn := 64) (V m c main_arg0))
    (fun t _ => flushed_eq m c t) cover

/-- THE KERNEL'S RUN, read: every weakly fair execution ends with the output array at `forest` of the input array and
    the input unchanged. -/
theorem run : θ_run defs (onTc (τ := τ) (main (F := Ideal))) ⟨m, fun _ => 0, ρ⟩ fun r => ∀ c : Dev nD,
      r.2.mem ((c : Thread nD τ).loc main_v0)
        = forest (R := 2048) (C := 65472) (Tn := 64) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Cert.KernelIdeal.Value.run_blocks m ρ)

end Cert.KernelIdeal.TreeValue

end
-- ==== Proof.ReferenceTree.lean ====
/-
  WHAT THE REFERENCE COMPUTES. It views the whole input as [2048, 64, 1023] (entry `(b, t, n)` is column `1023 t + n` of row
  `b`: a reshape keeps the row-major position), takes the logistic function of every logit, written out as
  `1 / (1 + exp (-x))` — which on the extended reals IS the logistic function, by its definition —, and climbs the tree
  one level at a time exactly as `SoftTree.frontier` does: level `i + 1` is the interleave of level `i` with the two
  shares of the forks `2^i - 1, …` (TreeLevel.lean, the host spelling). At the tenth level it keeps the pairs apart: it
  sums, over the 512 nodes of level 9, the node's mass times each member of the pair, and returns member `1` — the
  mass sent to the right — for every row and tree: `SoftTree.treeOut`.
-/
import proofs.«155367_j82162724372480_1_alg».proof.Proof.Gen.ReferenceIdeal.Read
import proofs.«155367_j82162724372480_1_alg».proof.Proof.TreeLevel
import Idealize.ShloMosaic.PureOps.Ideal.Laws
import Idealize.ShloMosaic.Lib.IdealHost

noncomputable section

namespace Cert.ReferenceIdeal.TreeValue

open Cert.ReferenceIdeal Cert.ReferenceIdeal.Gen Cert.ReferenceIdeal.Read Idealize.ShloMosaic Idealize.ShloMosaic.ValueIdx
open Idealize.ShloMosaic.Interleave SoftTree

/-- The [2048, 64, 1023] view: fork `n` of tree `t` in row `b` is column `1023 t + n` of the row. -/
theorem view_apply (x0 : FVec Ideal S2048x65472 .f32) (b : Fin 2048) (t : Fin 64) (n : Fin 1023) :
    val_main_v0 (F := Ideal) x0 (ix3 b t n)
      = x0 (ix2 b ⟨t.val * 1023 + n.val, by have := t.isLt; have := n.isLt; omega⟩) := by
  unfold val_main_v0
  refine shapeCast_apply x0 _ (ix3 b t n) _ ?_
  rw [Shape.rowMajor_val_two, Shape.rowMajor_val_three]
  show b.val * 65472 + (t.val * 1023 + n.val) = (b.val * 64 + t.val) * 1023 + n.val
  omega

/-- `1 / (1 + exp (-x))` of the view is the fork's decision: both ones are the float one, and the quotient, the sum,
    the exponential and the negation are the extended reals' own, which is how the logistic function is defined there. -/
theorem sigmoid_apply (x0 : FVec Ideal S2048x65472 .f32) (b : Fin 2048) (t : Fin 64) (n : Fin 1023) :
    val_main_v6 (F := Ideal) x0 (ix3 b t n) = fork x0 b t.val n.val := by
  rw [fork_of_lt x0 b t.val n.val (by have := t.isLt; have := n.isLt; show t.val * 1023 + n.val < 65472; omega)]
  show Ideal.div (Ideal.ofBits .f32 0x3F800000#32)
      (Ideal.ofBits .f32 0x3F800000#32 + Ideal.exp (-(val_main_v0 (F := Ideal) x0 (ix3 b t n)))) = _
  rw [Ideal.ofBits_one_f32, view_apply]
  rfl

/-- The decisions of `m` consecutive forks from fork `o` on: that slice of the array of decisions. -/
theorem decision (x0 : FVec Ideal S2048x65472 .f32) {m : ℕ} (o : ℕ)
    (hs : S2048x64x1023.Slices ![0, 0, o] ⟨3, ![2048, 64, m]⟩) (ho : o + m ≤ 1023) (b : Fin 2048) (t : Fin 64) (h : Fin m) :
    extractStridedSlice ⟨3, ![2048, 64, m]⟩ ![0, 0, o] (val_main_v6 (F := Ideal) x0) hs (ix3 b t h)
      = fork x0 b t.val (o + h.val) := by
  have hlt : o + h.val < 1023 := by have := h.isLt; omega
  rw [slice_last_apply o (val_main_v6 (F := Ideal) x0) hs b t h hlt, sigmoid_apply x0 b t ⟨o + h.val, hlt⟩]

/-- The other share: an array of ones minus those decisions. -/
theorem decision_compl (x0 : FVec Ideal S2048x65472 .f32) {m : ℕ} (o : ℕ)
    (hs : S2048x64x1023.Slices ![0, 0, o] ⟨3, ![2048, 64, m]⟩) (ho : o + m ≤ 1023)
    (u : FVec Ideal ⟨3, ![2048, 64, m]⟩ .f32) (hu : ∀ i, u i = 1) (b : Fin 2048) (t : Fin 64) (h : Fin m) :
    subf u (extractStridedSlice ⟨3, ![2048, 64, m]⟩ ![0, 0, o] (val_main_v6 (F := Ideal) x0) hs) (ix3 b t h)
      = 1 - fork x0 b t.val (o + h.val) := by
  rw [subf_apply, hu, decision x0 o hs ho]

/-! ## The levels, one stage of the program each -/

/-- Level 1: the masses of its 2 nodes, from level 0 and the fork 0. -/
theorem level1 (x0 : FVec Ideal S2048x65472 .f32) (b : Fin 2048) (t : Fin 64) (k : Fin 2) :
    val_main_v18 (F := Ideal) x0 (ix3 b t k) = frontier (fork x0 b t.val) 1 k.val := by
  unfold val_main_v18 val_main_v17 val_main_v16 val_main_v15 val_main_v14 val_main_v13 val_main_v12 val_main_v11 val_main_v9
  exact bcast_level (w := 1) (w2 := 2) rfl (fork x0 b t.val) 0 _ _ _ _ _ _ _ b t (fun _ => Ideal.ofBits_one_f32)
    (fun h => decision_compl x0 0 _ (by decide) _ (fun _ => Ideal.ofBits_one_f32) b t h)
    (fun h => decision x0 0 _ (by decide) b t h) k

/-- Level 2: the masses of its 4 nodes, from level 1 and the forks 1, …, 2. -/
theorem level2 (x0 : FVec Ideal S2048x65472 .f32) (b : Fin 2048) (t : Fin 64) (k : Fin 4) :
    val_main_v28 (F := Ideal) x0 (ix3 b t k) = frontier (fork x0 b t.val) 2 k.val := by
  unfold val_main_v28 val_main_v27 val_main_v26 val_main_v25 val_main_v24 val_main_v23 val_main_v22 val_main_v21 val_main_v19
  exact bcast_level (w := 2) (w2 := 4) rfl (fork x0 b t.val) 1 _ _ _ _ _ _ _ b t (fun h => level1 x0 b t h)
    (fun h => decision_compl x0 1 _ (by decide) _ (fun _ => Ideal.ofBits_one_f32) b t h)
    (fun h => decision x0 1 _ (by decide) b t h) k

/-- Level 3: the masses of its 8 nodes, from level 2 and the forks 3, …, 6. -/
theorem level3 (x0 : FVec Ideal S2048x65472 .f32) (b : Fin 2048) (t : Fin 64) (k : Fin 8) :
    val_main_v38 (F := Ideal) x0 (ix3 b t k) = frontier (fork x0 b t.val) 3 k.val := by
  unfold val_main_v38 val_main_v37 val_main_v36 val_main_v35 val_main_v34 val_main_v33 val_main_v32 val_main_v31 val_main_v29
  exact bcast_level (w := 4) (w2 := 8) rfl (fork x0 b t.val) 2 _ _ _ _ _ _ _ b t (fun h => level2 x0 b t h)
    (fun h => decision_compl x0 3 _ (by decide) _ (fun _ => Ideal.ofBits_one_f32) b t h)
    (fun h => decision x0 3 _ (by decide) b t h) k

/-- Level 4: the masses of its 16 nodes, from level 3 and the forks 7, …, 14. -/
theorem level4 (x0 : FVec Ideal S2048x65472 .f32) (b : Fin 2048) (t : Fin 64) (k : Fin 16) :
    val_main_v48 (F := Ideal) x0 (ix3 b t k) = frontier (fork x0 b t.val) 4 k.val := by
  unfold val_main_v48 val_main_v47 val_main_v46 val_main_v45 val_main_v44 val_main_v43 val_main_v42 val_main_v41 val_main_v39
  exact bcast_level (w := 8) (w2 := 16) rfl (fork x0 b t.val) 3 _ _ _ _ _ _ _ b t (fun h => level3 x0 b t h)
    (fun h => decision_compl x0 7 _ (by decide) _ (fun _ => Ideal.ofBits_one_f32) b t h)
    (fun h => decision x0 7 _ (by decide) b t h) k

/-- Level 5: the masses of its 32 nodes, from level 4 and the forks 15, …, 30. -/
theorem level5 (x0 : FVec Ideal S2048x65472 .f32) (b : Fin 2048) (t : Fin 64) (k : Fin 32) :
    val_main_v58 (F := Ideal) x0 (ix3 b t k) = frontier (fork x0 b t.val) 5 k.val := by
  unfold val_main_v58 val_main_v57 val_main_v56 val_main_v55 val_main_v54 val_main_v53 val_main_v52 val_main_v51 val_main_v49
  exact bcast_level (w := 16) (w2 := 32) rfl (fork x0 b t.val) 4 _ _ _ _ _ _ _ b t (fun h => level4 x0 b t h)
    (fun h => decision_compl x0 15 _ (by decide) _ (fun _ => Ideal.ofBits_one_f32) b t h)
    (fun h => decision x0 15 _ (by decide) b t h) k

/-- Level 6: the masses of its 64 nodes, from level 5 and the forks 31, …, 62. -/
theorem level6 (x0 : FVec Ideal S2048x65472 .f32) (b : Fin 2048) (t : Fin 64) (k : Fin 64) :
    val_main_v68 (F := Ideal) x0 (ix3 b t k) = frontier (fork x0 b t.val) 6 k.val := by
  unfold val_main_v68 val_main_v67 val_main_v66 val_main_v65 val_main_v64 val_main_v63 val_main_v62 val_main_v61 val_main_v59
  exact bcast_level (w := 32) (w2 := 64) rfl (fork x0 b t.val) 5 _ _ _ _ _ _ _ b t (fun h => level5 x0 b t h)
    (fun h => decision_compl x0 31 _ (by decide) _ (fun _ => Ideal.ofBits_one_f32) b t h)
    (fun h => decision x0 31 _ (by decide) b t h) k

/-- Level 7: the masses of its 128 nodes, from level 6 and the forks 63, …, 126. -/
theorem level7 (x0 : FVec Ideal S2048x65472 .f32) (b : Fin 2048) (t : Fin 64) (k : Fin 128) :
    val_main_v78 (F := Ideal) x0 (ix3 b t k) = frontier (fork x0 b t.val) 7 k.val := by
  unfold val_main_v78 val_main_v77 val_main_v76 val_main_v75 val_main_v74 val_main_v73 val_main_v72 val_main_v71 val_main_v69
  exact bcast_level (w := 64) (w2 := 128) rfl (fork x0 b t.val) 6 _ _ _ _ _ _ _ b t (fun h => level6 x0 b t h)
    (fun h => decision_compl x0 63 _ (by decide) _ (fun _ => Ideal.ofBits_one_f32) b t h)
    (fun h => decision x0 63 _ (by decide) b t h) k

/-- Level 8: the masses of its 256 nodes, from level 7 and the forks 127, …, 254. -/
theorem level8 (x0 : FVec Ideal S2048x65472 .f32) (b : Fin 2048) (t : Fin 64) (k : Fin 256) :
    val_main_v88 (F := Ideal) x0 (ix3 b t k) = frontier (fork x0 b t.val) 8 k.val := by
  unfold val_main_v88 val_main_v87 val_main_v86 val_main_v85 val_main_v84 val_main_v83 val_main_v82 val_main_v81 val_main_v79
  exact bcast_level (w := 128) (w2 := 256) rfl (fork x0 b t.val) 7 _ _ _ _ _ _ _ b t (fun h => level7 x0 b t h)
    (fun h => decision_compl x0 127 _ (by decide) _ (fun _ => Ideal.ofBits_one_f32) b t h)
    (fun h => decision x0 127 _ (by decide) b t h) k

/-- Level 9: the masses of its 512 nodes, from level 8 and the forks 255, …, 510. -/
theorem level9 (x0 : FVec Ideal S2048x65472 .f32) (b : Fin 2048) (t : Fin 64) (k : Fin 512) :
    val_main_v98 (F := Ideal) x0 (ix3 b t k) = frontier (fork x0 b t.val) 9 k.val := by
  unfold val_main_v98 val_main_v97 val_main_v96 val_main_v95 val_main_v94 val_main_v93 val_main_v92 val_main_v91 val_main_v89
  exact bcast_level (w := 256) (w2 := 512) rfl (fork x0 b t.val) 8 _ _ _ _ _ _ _ b t (fun h => level8 x0 b t h)
    (fun h => decision_compl x0 255 _ (by decide) _ (fun _ => Ideal.ofBits_one_f32) b t h)
    (fun h => decision x0 255 _ (by decide) b t h) k

/-! ## The tenth level and the sum -/

/-- Member `1` of pair `k` at the tenth level: the mass of node `k` of level 9 times the decision of its fork
    `511 + k`. -/
theorem right_share (x0 : FVec Ideal S2048x65472 .f32) (b : Fin 2048) (t : Fin 64) (k : Fin 512) :
    val_main_v107 (F := Ideal) x0 (ix4 b t k 1)
      = frontier (fork x0 b t.val) 9 k.val * fork x0 b t.val (511 + k.val) := by
  unfold val_main_v107 val_main_v106 val_main_v105 val_main_v104 val_main_v103 val_main_v102 val_main_v99
  rw [mulf_apply, bcast_pair_apply, bcast_addLast_apply, join_pair_apply, if_neg (by decide), bcast_addLast_apply,
    level9, decision x0 511 _ (by decide)]

/-- THE RESULT, entry `(b, t)`: zero plus the sum over level 9 of the right shares. -/
theorem result_apply (x0 : FVec Ideal S2048x65472 .f32) (b : Fin 2048) (t : Fin 64) :
    val_main_v111 (F := Ideal) x0 (ix2 b t) = treeOut x0 b t.val := by
  rw [val_main_v111_apply, val_main_v110_apply, val_main_v109_apply]
  show Ideal.ofBits .f32 0x00000000#32 + _ = _
  rw [Ideal.ofBits_zero_f32, zero_add]
  unfold treeOut rightMass
  refine Finset.sum_congr rfl fun k _ => ?_
  have hidx : idx_main_v109 (idx_main_v110 (idx_main_v111 (ix2 b t))) k = ix4 b t k 1 := by
    funext a
    apply Fin.ext
    have hb := b.isLt
    have ht := t.isLt
    match a with
    | ⟨0, _⟩ => show (b.val * 64 + t.val) / 64 = b.val; omega
    | ⟨1, _⟩ => show (b.val * 64 + t.val) / 1 % 64 = t.val; omega
    | ⟨2, _⟩ => rfl
    | ⟨3, _⟩ => rfl
  rw [hidx]
  exact right_share x0 b t k

end Cert.ReferenceIdeal.TreeValue

end
-- ==== Proof.lean ====
/-
  A SOFT DECISION TREE of depth 10, for 2048 batch rows of 64 trees each: the kernel equals its reference over the
  extended reals.

  The input holds, for every row and tree, the 1023 logits of the tree's forks, level by level. A fork sends the
  fraction `σ = logistic (logit)` of the mass reaching it to the right and `1 - σ` to the left; the answer for a tree is
  the mass its last level (level 9, 512 forks) sends to the right (SoftTree.lean: `frontier`, `rightMass`,
  `forest`).

  BOTH programs climb the tree one level at a time in the same way — pair `1 - σ` with `σ` on a new last axis, multiply by
  the current masses repeated on the pair, flatten: an interleave (LibInterleave.lean, TreeLevel.lean) — and they differ
  only in where they stop. The REFERENCE builds all ten levels over the whole input, sums the tenth level's pairs over
  the 512 nodes of level 9 and keeps the right member (ReferenceTree.lean). The KERNEL works on blocks of 32 rows, builds
  nine levels, multiplies level 9 by the last level's decisions and sums (KernelTree.lean); the 64 row blocks tile the
  output (KernelArray.lean). Term by term these are the same products and the same sum of 512 terms, so no law of
  arithmetic beyond `0 + s = s` is used and the inputs' finiteness is not needed. The logistic function is the kernel's
  one operation and the reference's `1 / (1 + exp (-x))`: on the extended reals these are one function by definition.

  The three frames are the generated ones (the reference's is its generated run with the result dropped), and the
  idealization rewrote nothing, so its conjunct is `True`.
-/
import proofs.«155367_j82162724372480_1_alg».proof.Defs
import proofs.«155367_j82162724372480_1_alg».proof.Proof.Gen.Kernel
import proofs.«155367_j82162724372480_1_alg».proof.Proof.Gen.Kernel.Skeleton
import proofs.«155367_j82162724372480_1_alg».proof.Proof.Gen.Kernel.Launch
import proofs.«155367_j82162724372480_1_alg».proof.Proof.Gen.Kernel.Points
import proofs.«155367_j82162724372480_1_alg».proof.Proof.Gen.Kernel.Frame
import proofs.«155367_j82162724372480_1_alg».proof.Proof.Gen.KernelIdeal
import proofs.«155367_j82162724372480_1_alg».proof.Proof.Gen.KernelIdeal.Skeleton
import proofs.«155367_j82162724372480_1_alg».proof.Proof.Gen.KernelIdeal.Launch
import proofs.«155367_j82162724372480_1_alg».proof.Proof.Gen.KernelIdeal.Points
import proofs.«155367_j82162724372480_1_alg».proof.Proof.Gen.KernelIdeal.Frame
import proofs.«155367_j82162724372480_1_alg».proof.Proof.Gen.ReferenceIdeal
import proofs.«155367_j82162724372480_1_alg».proof.Proof.Gen.Pre_finite_inputs
import proofs.«155367_j82162724372480_1_alg».proof.Proof.Gen.KernelIdeal.Value
import proofs.«155367_j82162724372480_1_alg».proof.Proof.Gen.ReferenceIdeal.Run
import proofs.«155367_j82162724372480_1_alg».proof.Proof.Gen.ReferenceIdeal.Read
import proofs.«155367_j82162724372480_1_alg».proof.Proof.KernelArray
import proofs.«155367_j82162724372480_1_alg».proof.Proof.ReferenceTree
import Idealize.ShloMosaic.Adequacy
import Idealize.ShloMosaic.Init

noncomputable section

namespace Cert.Proof

open Idealize.ShloMosaic Idealize.ShloMosaic.TcCoe Idealize.SL.Sem Idealize.ShloMosaic.ValueIdx SoftTree

/-- The reference's result array is `forest` of its argument: entry by entry, ReferenceTree.lean. -/
theorem reference_eq (x0 : FVec Ideal Cert.ReferenceIdeal.S2048x65472 .f32) :
    Cert.ReferenceIdeal.Read.val_main_v111 (F := Ideal) x0 = forest (R := 2048) (C := 65472) (Tn := 64) x0 := by
  funext j
  obtain ⟨b, t, rfl⟩ : ∃ (b : Fin 2048) (t : Fin 64), j = ix2 b t := ⟨j 0, j 1, eq_ix2 j⟩
  rw [forest_ix2]
  exact Cert.ReferenceIdeal.TreeValue.result_apply x0 b t

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `forest` of the (agreeing) argument arrays. -/
theorem algebraic : Cert.algebraic_KernelIdeal_ReferenceIdeal := by
  intro m ρ m' ρ' _ hagree
  refine ⟨fun c => forest (R := 2048) (C := 65472) (Tn := 64)
      (m ((c.tc : Thread Cert.KernelIdeal.nD Cert.KernelIdeal.τ).loc Cert.KernelIdeal.main_arg0)),
    Cert.KernelIdeal.TreeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v111_eq, reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
